-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x40 .f32) (main_arg3 : FVec F S40 .f32) (main_arg4 : FVec F S64x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x40 .f32 := Host.absf main_arg2
  let main_cst_0 : FVec F S_ .f32 := constant S_ .f32 0x7F800000#32
  let main_v5 : FVec F S64x40 .f32 := broadcastInDim S64x40 ![] bcast_S_S64x40 main_cst_0
  let main_v6 : IVec S64x40 1 := cmpf .olt main_v4 main_v5
  let main_c_1 : IVec S_ 1 := constantI S_ 1 1#1
  let main_v7 : IVec S_ 1 := (fun x v => Host.reduce IntOp.andi x v reducesTo_S64x40_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x40 : Shape := ⟨2, ![1, 40]⟩
abbrev S100000x40 : Shape := ⟨2, ![100000, 40]⟩
abbrev S10000x64 : Shape := ⟨2, ![10000, 64]⟩
abbrev S10000x40 : Shape := ⟨2, ![10000, 40]⟩
abbrev S10000 : Shape := ⟨1, ![10000]⟩
abbrev S10000x1 : Shape := ⟨2, ![10000, 1]⟩

abbrev nBuf : Space → Nat
  | .hbm => 36
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x40, .f32⟩
  | .hbm, ⟨3, _⟩ => ⟨S40, .f32⟩
  | .hbm, ⟨4, _⟩ => ⟨S64x40, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S1x40, .f32⟩
  | .hbm, ⟨35, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x40, .f32⟩
  | .local _ .vmem, ⟨5, _⟩ => ⟨S64x40, .f32⟩
  | .local _ .vmem, ⟨6, _⟩ => ⟨S1x40, .f32⟩
  | .local _ .vmem, ⟨7, _⟩ => ⟨S10000x40, .f32⟩
  | .local _ .vmem, ⟨8, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x40.size a ≤ S64x40.size a
  hwx0_2 : ∀ i : grid0.Coords, EltTy.bits .f32 = 32 ∨ (Rect.block (s := S64x40) S64x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x40.size a ≤ S64x40.size a
  hwx0_3 : ∀ i : grid0.Coords, EltTy.bits .f32 = 32 ∨ (Rect.block (s := S64x40) S64x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x40.size a ≤ S100000x40.size a
  hwx0_5 : ∀ i : grid0.Coords, EltTy.bits .f32 = 32 ∨ (Rect.block (s := S100000x40) S10000x40.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x40 : Shape := ⟨2, ![100000, 40]⟩
abbrev S1x40 : Shape := ⟨2, ![1, 40]⟩

abbrev nBuf : Space → Nat
  | .hbm => 55
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x40, .f32⟩
  | .hbm, ⟨3, _⟩ => ⟨S40, .f32⟩
  | .hbm, ⟨4, _⟩ => ⟨S64x40, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x40, .f32⟩
  | .hbm, ⟨35, _⟩ => ⟨S1x40, .f32⟩
  | .hbm, ⟨36, _⟩ => ⟨S100000x40, .f32⟩
  | .hbm, ⟨37, _⟩ => ⟨S100000x40, .f32⟩
  | .hbm, ⟨38, _⟩ => ⟨S100000x40, .f32⟩
  | .hbm, ⟨39, _⟩ => ⟨S100000x40, .f32⟩
  | .hbm, ⟨40, _⟩ => ⟨S_, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x40, .f32⟩
  | .hbm, ⟨47, _⟩ => ⟨S100000x40, .f32⟩
  | .hbm, ⟨48, _⟩ => ⟨S100000x40, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S100000x1, .f32⟩
  | .hbm, ⟨53, _⟩ => ⟨S100000x40, .f32⟩
  | .hbm, ⟨54, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_cst_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_v29 : Ref sig .tc := ⟨.hbm, 54, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Rows.lean ====
/-
  Mean-aggregated neighbour features through two linear maps, then a row-wise log-softmax: the mathematics of this
  certificate, free of either program.

  A row of the result is determined by one row `a` of the aggregated features, the same row `x` of the node features,
  the two 64 × 40 weight matrices and the 40 biases.  Its 40 logits are `a · Wl + x · Wr + b`; the kernel adds the
  bias last, the reference adds it between the two products (`logitBiasLast`, `logitBiasMid`).  The two agree on the
  extended reals by commutativity and associativity of `+` alone (`logitBiasMid_eq`): no finiteness is needed.

  The log-softmax of a row `f` of 40 logits is `(f c - M) - log (∑ c', exp (f c' - M))` with `M` the row's maximum,
  taken as the fold of `max` from the word of −∞ over the 40 columns (`rowMax`, `logSoftmaxRow`).  The reference
  takes one more maximum with −∞ before subtracting; −∞ is the bottom of the extended reals, so that is the identity
  (`max_negInf_left`).
-/
import Idealize.ShloMosaic.PureOps.Ideal
import Idealize.ShloMosaic.PureOps.Ideal.Laws
import Idealize.ShloMosaic.Lib.ValueIdx

noncomputable section

namespace Cert.SageRows

open Idealize.ShloMosaic Idealize.ShloMosaic.ValueIdx

/-- The f32 word of −∞, read at the ideal values. -/
abbrev negInf : EReal := Ideal.ofBits .f32 0xFF800000#32

/-- The word of −∞ is the bottom of the extended reals. -/
theorem negInf_eq_bot : negInf = ⊥ := by
  simp [negInf, Ideal.ofBits, Ideal.ieee]

/-- A maximum with −∞ on the left is the other operand. -/
theorem max_negInf_left (x : EReal) : max negInf x = x := by
  rw [negInf_eq_bot]; exact max_bot_left x

/-- The f32 word of zero is the real zero, so adding it on the left changes nothing. -/
theorem zeroWord_add (x : EReal) : Ideal.ofBits .f32 0x00000000#32 + x = x := by
  rw [Ideal.ofBits_zero_f32, zero_add]

/-- A row's maximum: the fold of `max` from −∞ over its 40 columns. -/
def rowMax (f : Fin 40 → EReal) : EReal := (Finset.univ : Finset (Fin 40)).fold max negInf f

/-- The log-softmax of a row of 40 logits, at column `c`: shift by the row's maximum, then subtract the logarithm of
    the sum of the shifted row's exponentials. -/
def logSoftmaxRow (f : Fin 40 → EReal) (c : Fin 40) : EReal :=
  (f c - rowMax f) - Ideal.log (∑ c' : Fin 40, Ideal.exp (f c' - rowMax f))

/-- A logit with the bias added LAST: `(a · Wl + x · Wr) + b`. -/
def logitBiasLast (a x : Fin 64 → EReal) (wl wr : Fin 64 → Fin 40 → EReal) (b : Fin 40 → EReal) (c : Fin 40) : EReal :=
  (∑ k : Fin 64, a k * wl k c + ∑ k : Fin 64, x k * wr k c) + b c

/-- A logit with the bias added BETWEEN the two products: `(a · Wl + b) + x · Wr`. -/
def logitBiasMid (a x : Fin 64 → EReal) (wl wr : Fin 64 → Fin 40 → EReal) (b : Fin 40 → EReal) (c : Fin 40) : EReal :=
  (∑ k : Fin 64, a k * wl k c + b c) + ∑ k : Fin 64, x k * wr k c

/-- The two orders of the three summands agree: addition of extended reals is commutative and associative. -/
theorem logitBiasMid_eq (a x : Fin 64 → EReal) (wl wr : Fin 64 → Fin 40 → EReal) (b : Fin 40 → EReal) :
    logitBiasMid a x wl wr b = logitBiasLast a x wl wr b :=
  funext fun _ => add_right_comm _ _ _

/-- THE RESULT as one function of the aggregated features `A`, the node features `X`, the weights and the bias,
    index by index: entry (r, c) is the log-softmax, at column c, of row r's logits. -/
def result (A X : (⟨2, ![100000, 64]⟩ : Shape).Idx → EReal) (Wl Wr : (⟨2, ![64, 40]⟩ : Shape).Idx → EReal)
    (B : (⟨1, ![40]⟩ : Shape).Idx → EReal) : (⟨2, ![100000, 40]⟩ : Shape).Idx → EReal :=
  fun i => logSoftmaxRow (logitBiasLast (fun k => A (ix2 (i 0) k)) (fun k => X (ix2 (i 0) k))
    (fun k c => Wl (ix2 k c)) (fun k c => Wr (ix2 k c)) (fun c => B (ix1 c))) (i 1)

/-- `result` at an index `i`, from the data of `i`'s row however it is named: the row `a` of the aggregated features and
    `x` of the node features, the weights, the bias, and `i`'s column `q`. -/
theorem result_of_row (A X : (⟨2, ![100000, 64]⟩ : Shape).Idx → EReal) (Wl Wr : (⟨2, ![64, 40]⟩ : Shape).Idx → EReal)
    (B : (⟨1, ![40]⟩ : Shape).Idx → EReal) (i : (⟨2, ![100000, 40]⟩ : Shape).Idx)
    (a x : Fin 64 → EReal) (wl wr : Fin 64 → Fin 40 → EReal) (b : Fin 40 → EReal) (q : Fin 40)
    (ha : ∀ k, a k = A (ix2 (i 0) k)) (hx : ∀ k, x k = X (ix2 (i 0) k))
    (hwl : ∀ k c, wl k c = Wl (ix2 k c)) (hwr : ∀ k c, wr k c = Wr (ix2 k c)) (hb : ∀ c, b c = B (ix1 c))
    (hq : i 1 = q) :
    logSoftmaxRow (logitBiasLast a x wl wr b) q = result A X Wl Wr B i := by
  subst hq
  obtain rfl : a = fun k => A (ix2 (i 0) k) := funext ha
  obtain rfl : x = fun k => X (ix2 (i 0) k) := funext hx
  obtain rfl : wl = fun k c => Wl (ix2 k c) := funext fun k => funext (hwl k)
  obtain rfl : wr = fun k c => Wr (ix2 k c) := funext fun k => funext (hwr k)
  obtain rfl : b = fun c => B (ix1 c) := funext hb
  rfl

end Cert.SageRows

end
-- ==== Proof.BlockRows.lean ====
/-
  One entry of what the kernel's body stores, as the row function of the blocks it loads.

  At a grid point the body loads a [10000, 64] block of the aggregated features, the matching block of the node
  features, the two [64, 40] weight matrices and the [1, 40] bias, and stores a [10000, 40] block.  Entry (p, q) of the
  stored block depends on row p of the two feature blocks only: it is the log-softmax, at column q, of that row's forty
  logits with the bias added last (`Cert.SageRows.logSoftmaxRow`, `logitBiasLast`).

  Read at the ideal values: narrowing to bf16 is the identity; a product into a zero accumulator at (p, c) is the sum
  over the 64 contracted coordinates (`product_entry`); the row maximum is the fold of `max` from −∞ over the forty
  columns and the row sum the sum over them (`softmax_entry`); the keep-dims casts and broadcasts only re-lay a
  row's value along its columns (`column_entry`).
-/
import proofs.«106241_j2697239462706_1_alg».proof.Proof.Gen.KernelIdeal.Skeleton
import proofs.«106241_j2697239462706_1_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockRows

open Cert.KernelIdeal Cert.KernelIdeal.Gen Idealize.ShloMosaic Idealize.ShloMosaic.ValueIdx Cert.SageRows

/-- The dimension record of the body's two products: [10000, 64] × [64, 40], one contracted axis. -/
abbrev blockDot : DotDims S10000x64 S64x40 S10000x40 := dot_S10000x64_S64x40_S10000x40_1_0_0_1_n_n

theorem lhs_row (j : S10000x40.Idx) (k : blockDot.contr.Idx) : (blockDot.lhsIdx j k 0).val = (j 0).val := by
  unfold DotDims.lhsIdx
  rw [dif_neg (show ¬(0 : Fin S10000x64.rank) ∈ blockDot.lhsBatch by decide),
    dif_pos (show (0 : Fin S10000x64.rank) ∈ blockDot.lhsNonContracting by decide)]
  rfl
theorem lhs_contracted (j : S10000x40.Idx) (k : blockDot.contr.Idx) :
    (blockDot.lhsIdx j k 1).val = (k ⟨0, by decide⟩).val :=
  blockDot.lhsIdx_val_of_single rfl j k
theorem rhs_contracted (j : S10000x40.Idx) (k : blockDot.contr.Idx) :
    (blockDot.rhsIdx j k 0).val = (k ⟨0, by decide⟩).val :=
  blockDot.rhsIdx_val_of_single rfl j k
theorem rhs_col (j : S10000x40.Idx) (k : blockDot.contr.Idx) : (blockDot.rhsIdx j k 1).val = (j 1).val := by
  unfold DotDims.rhsIdx
  rw [dif_neg (show ¬(1 : Fin S64x40.rank) ∈ blockDot.rhsBatch by decide),
    dif_pos (show (1 : Fin S64x40.rank) ∈ blockDot.rhsNonContracting by decide)]
  rfl

/-- A [10000, 64] × [64, 40] product into the zero accumulator, at (p, c): the sum over the 64 contracted
    coordinates of row p of the left operand times column c of the right. -/
theorem product_entry {φ₁ φ₂ : FTy} (l : FVec Ideal S10000x64 φ₁) (r : FVec Ideal S64x40 φ₂) (p : Fin 10000) (c : Fin 40) :
    matmul blockDot none l r (constant (F := Ideal) S10000x40 .f32 0x00000000#32) (ix2 p c)
      = ∑ k : Fin 64, l (ix2 p k) * r (ix2 k c) := by
  refine (Ideal.matmul_constant_zero_apply blockDot none l r (ix2 p c)).trans ?_
  rw [← Equiv.sum_comp (contrEquiv1 blockDot 64 rfl rfl).symm]
  refine Finset.sum_congr rfl fun k _ => ?_
  have hk := contrEquiv1_symm_val blockDot 64 rfl rfl k
  have el : blockDot.lhsIdx (ix2 p c) ((contrEquiv1 blockDot 64 rfl rfl).symm k) = ix2 p k := funext fun a => Fin.ext (by
    match a with
    | ⟨0, _⟩ => exact lhs_row _ _
    | ⟨1, _⟩ => exact (lhs_contracted _ _).trans hk)
  have er : blockDot.rhsIdx (ix2 p c) ((contrEquiv1 blockDot 64 rfl rfl).symm k) = ix2 k c := funext fun a => Fin.ext (by
    match a with
    | ⟨0, _⟩ => exact (rhs_contracted _ _).trans hk
    | ⟨1, _⟩ => exact rhs_col _ _)
  rw [el, er]

/-- The block's logits, at (p, c): row p of the two feature blocks through the two weight matrices, plus the bias. -/
theorem logits_entry (v0 v3 : FVec Ideal S10000x64 .f32) (v5 v7 : FVec Ideal S64x40 .f32) (v12 : FVec Ideal S1x40 .f32)
    (h1 : S10000x64.ShapeCasts S10000x64) (hb : FTy.bits .bf16 < FTy.bits .f32) (h2 : S1x40.ShapeCasts S1x40)
    (h3 : S1x40.Broadcasts S10000x40) (p : Fin 10000) (c : Fin 40) :
    addf (addf (matmul blockDot none (truncf .bf16 (shapeCast S10000x64 v0 h1) hb) (truncf .bf16 v5 hb) (constant (F := Ideal) S10000x40 .f32 0x00000000#32))
               (matmul blockDot none (truncf .bf16 v3 hb) (truncf .bf16 v7 hb) (constant (F := Ideal) S10000x40 .f32 0x00000000#32)))
         (broadcastTo S10000x40 (shapeCast S1x40 v12 h2) h3) (ix2 p c)
      = logitBiasLast (fun k => v0 (ix2 p k)) (fun k => v3 (ix2 p k)) (fun k c => v5 (ix2 k c)) (fun k c => v7 (ix2 k c))
          (fun c => v12 (ix2 (0 : Fin 1) c)) c := by
  show (matmul blockDot none (truncf .bf16 (shapeCast S10000x64 v0 h1) hb) (truncf .bf16 v5 hb) (constant (F := Ideal) S10000x40 .f32 0x00000000#32) (ix2 p c)
        + matmul blockDot none (truncf .bf16 v3 hb) (truncf .bf16 v7 hb) (constant (F := Ideal) S10000x40 .f32 0x00000000#32) (ix2 p c))
        + broadcastTo S10000x40 (shapeCast S1x40 v12 h2) h3 (ix2 p c) = _
  rw [product_entry, product_entry, broadcastTo_1b_ab_apply, shapeCast_self, shapeCast_self]
  rfl

/-- A row's value `g p`, kept as a [10000, 1] column and broadcast along the forty columns, is `g p` at (p, q). -/
theorem column_entry (g : FVec Ideal S10000 .f32) (hc : S10000.ShapeCasts S10000x1) (hb : S10000x1.Broadcasts S10000x40)
    (f : EReal → EReal) (p : Fin 10000) (q : Fin 40) :
    broadcastTo S10000x40 (fun i => f (shapeCast S10000x1 g hc i)) hb (ix2 p q) = f (g (ix1 p)) := by
  refine (broadcastTo_apply (fun i => f (shapeCast S10000x1 g hc i)) hb (ix2 p q) (ix2 p (0 : Fin 1)) fun a => ?_).trans ?_
  · match a with
    | ⟨0, _⟩ => rfl
    | ⟨1, _⟩ => rfl
  · show f (shapeCast S10000x1 g hc (ix2 p (0 : Fin 1))) = _
    refine congrArg f (shapeCast_apply g hc _ (ix1 p) ?_)
    rw [Shape.rowMajor_val_two, Shape.rowMajor_val_one]
    show p.val = p.val * 1 + 0
    omega

/-- The index a reduction over the columns inserts: row p with column k. -/
theorem lift_row (hr : S10000x40.Reduces [1] S10000) (p : Fin 10000) (k : Fin 40) : hr.lift (ix1 p) k = ix2 p k :=
  funext fun a => Fin.ext (by
    match a with
    | ⟨0, _⟩ => rfl
    | ⟨1, _⟩ => rfl)

/-- The maximum over the columns, at row p: the fold of `max` from −∞ over that row's forty entries. -/
theorem rowMax_entry (X : FVec Ideal S10000x40 .f32) (hr : S10000x40.Reduces [1] S10000) (hφ : FKind.Formats .f32)
    (hacc : (0xFF800000#32 : BitVec 32) = FKind.maximumf.neutral .f32 hφ) (p : Fin 10000) :
    multiReduction .maximumf [1] S10000 X 0xFF800000#32 hr hφ hacc (ix1 p) = rowMax (fun c => X (ix2 p c)) := by
  refine (Ideal.multiReduction_maximumf_single X 0xFF800000#32 hr hφ hacc (ix1 p)).trans ?_
  show (Finset.univ : Finset (Fin 40)).fold max negInf (fun k => X (hr.lift (ix1 p) k)) = _
  unfold rowMax
  exact congrArg (fun f => (Finset.univ : Finset (Fin 40)).fold max negInf f) (funext fun c => congrArg X (lift_row hr p c))

/-- The sum over the columns, at row p: the sum of that row's forty entries. -/
theorem rowSum_entry (Y : FVec Ideal S10000x40 .f32) (hr : S10000x40.Reduces [1] S10000) (hφ : FKind.Formats .f32)
    (hacc : (0x00000000#32 : BitVec 32) = FKind.add.neutral .f32 hφ) (p : Fin 10000) :
    multiReduction .add [1] S10000 Y 0x00000000#32 hr hφ hacc (ix1 p) = ∑ c : Fin 40, Y (ix2 p c) := by
  refine (Ideal.multiReduction_add_single Y 0x00000000#32 hr hφ hacc (ix1 p)).trans ?_
  show ∑ k : Fin 40, Y (hr.lift (ix1 p) k) = _
  exact Finset.sum_congr rfl fun c _ => congrArg Y (lift_row hr p c)

/-- Subtracting a row value kept as a column: at (p, c), the entry minus row p's value. -/
theorem sub_column_entry (X : FVec Ideal S10000x40 .f32) (g : FVec Ideal S10000 .f32) (hc : S10000.ShapeCasts S10000x1)
    (hb : S10000x1.Broadcasts S10000x40) (p : Fin 10000) (c : Fin 40) :
    subf X (broadcastTo S10000x40 (shapeCast S10000x1 g hc) hb) (ix2 p c) = X (ix2 p c) - g (ix1 p) :=
  congrArg (X (ix2 p c) - ·) (column_entry g hc hb id p c)

/-- Subtracting the logarithm of a row value kept as a column: at (p, c), the entry minus the logarithm of row p's value. -/
theorem sub_log_column_entry (X : FVec Ideal S10000x40 .f32) (g : FVec Ideal S10000 .f32) (hc : S10000.ShapeCasts S10000x1)
    (hb : S10000x1.Broadcasts S10000x40) (p : Fin 10000) (c : Fin 40) :
    subf X (broadcastTo S10000x40 (log (shapeCast S10000x1 g hc)) hb) (ix2 p c) = X (ix2 p c) - Ideal.log (g (ix1 p)) :=
  congrArg (X (ix2 p c) - ·) (column_entry g hc hb Ideal.log p c)

/-- The body's log-softmax of a [10000, 40] vector `X`, at (p, q): the log-softmax of row p of `X`, at column q. -/
theorem softmax_entry (X : FVec Ideal S10000x40 .f32) (hr : S10000x40.Reduces [1] S10000) (hφ : FKind.Formats .f32)
    (hmax : (0xFF800000#32 : BitVec 32) = FKind.maximumf.neutral .f32 hφ)
    (hadd : (0x00000000#32 : BitVec 32) = FKind.add.neutral .f32 hφ)
    (hc : S10000.ShapeCasts S10000x1) (hb : S10000x1.Broadcasts S10000x40) (p : Fin 10000) (q : Fin 40) :
    subf (subf X (broadcastTo S10000x40 (shapeCast S10000x1 (multiReduction .maximumf [1] S10000 X 0xFF800000#32 hr hφ hmax) hc) hb))
      (broadcastTo S10000x40 (log (shapeCast S10000x1 (multiReduction .add [1] S10000
        (exp (subf X (broadcastTo S10000x40 (shapeCast S10000x1 (multiReduction .maximumf [1] S10000 X 0xFF800000#32 hr hφ hmax) hc) hb)))
        0x00000000#32 hr hφ hadd) hc)) hb) (ix2 p q)
      = logSoftmaxRow (fun c => X (ix2 p c)) q := by
  rw [sub_log_column_entry, sub_column_entry, rowSum_entry, rowMax_entry]
  unfold logSoftmaxRow
  refine congrArg (fun z => _ - Ideal.log z) (Finset.sum_congr rfl fun c _ => ?_)
  show Ideal.exp (subf X (broadcastTo S10000x40 (shapeCast S10000x1 (multiReduction .maximumf [1] S10000 X 0xFF800000#32 hr hφ hmax) hc) hb) (ix2 p c)) = _
  rw [sub_column_entry, rowMax_entry]

/-- THE PAYLOAD AT AN ENTRY: what the body stores at (p, q) is the log-softmax, at column q, of the logits of row p of
    its loaded blocks. -/
theorem payload_entry (v0 v3 : Vec Ideal S10000x64 .f32) (v5 v7 : Vec Ideal S64x40 .f32) (v12 : Vec Ideal S1x40 .f32)
    (p : Fin 10000) (q : Fin 40) :
    k0_pay1 (F := Ideal) v0 v3 v5 v7 v12 (ix2 p q)
      = logSoftmaxRow (logitBiasLast (fun k => v0 (ix2 p k)) (fun k => v3 (ix2 p k)) (fun k c => v5 (ix2 k c))
          (fun k c => v7 (ix2 k c)) (fun c => v12 (ix2 (0 : Fin 1) c))) q := by
  unfold k0_pay1
  refine (softmax_entry _ _ _ _ _ _ _ p q).trans ?_
  exact congrArg (fun f => logSoftmaxRow f q) (funext fun c => logits_entry v0 v3 v5 v7 v12 _ _ _ _ p c)

end Cert.KernelIdeal.BlockRows

end
-- ==== Proof.BlockArray.lean ====
/-
  From what each grid point writes back to the whole result array.

  The grid has ten points.  Point t stages rows [10000·t, 10000·t + 10000) of the aggregated features and of the node
  features, the two weight matrices and the bias whole, and writes back rows [10000·t, 10000·t + 10000) of the result
  (`block_index`: the printed index maps, decided over the ten points).  Entry (p, q) of what point t writes back is the
  row function of row 10000·t + p of the two feature arrays (`Cert.KernelIdeal.BlockRows.payload_entry`), which is
  entry (10000·t + p, q) of `Cert.SageRows.result` (`block_eq`, over any arrays; `flushed_eq`, at the region's).  Every row r lies in the block of point r / 10000
  (`cover`), so the result array ends holding `result` (`final`), and the kernel's run is re-posted with that (`run`).

  The aggregated features are whatever the host operations before the region left in their buffer: they stay one
  opaque array here.  The bias is staged from its one-row reshape (`bias_row`).
-/
import proofs.«106241_j2697239462706_1_alg».proof.Proof.Gen.KernelIdeal.Value
import proofs.«106241_j2697239462706_1_alg».proof.Proof.BlockRows
import Idealize.ShloMosaic.Lib.Pipeline.Value
import Idealize.ShloMosaic.Lib.ValueLayout
import Idealize.ShloMosaic.Lib.StableHlo.Run

noncomputable section

namespace Cert.KernelIdeal.BlockArray

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.SageRows

variable (m : (ℓ : Loc nD τ sig) → Buf (Elt Ideal) ℓ) (ρ : Dev nD → PrngReg)

theorem zero_offset : (![0, 0] : Fin 2 → Nat) = fun _ => 0 := funext fun a => by fin_cases a <;> rfl

/-- The printed index maps over the ten points: the two feature windows move with the result window down the rows,
    the weights and the bias stay at block (0, 0), and the result's block row is the point's number. -/
theorem block_index : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The bias window's array, as the region finds it: the bias reshaped to one row. -/
theorem bias_row (c : Dev nD) :
    (V m c main_v23 : S1x40.Idx → EReal) = shapeCast S1x40 (m ((c : Thread nD τ).loc main_arg3)) shapeCasts_S40_S1x40 := by
  dsimp only [Gen.V, Gen.hostOps0]
  after_results_simp
  rfl

/-- A block-shaped value `P`, cut by the result window at point `t`, is block `t` of an array `G` as soon as each entry
    (p, q) of `P` is `G` at the place the block puts (p, q). -/
theorem cut_eq_read_of_entries (t : Fin cfg0.N) (P : S10000x40.Idx → EReal) (G : S100000x40.Idx → EReal)
    (h : ∀ (p : Fin 10000) (q : Fin 40), P (ix2 p q) = G (((cfg0.win 5).blk t).view.emb (ix2 p q))) :
    (cfg0.win 5).cut (grid0.coords t) P = ((cfg0.win 5).blk t).view.read (Elt Ideal) G := by
  funext j
  obtain ⟨p, q, rfl⟩ : ∃ (p : Fin 10000) (q : Fin 40), j = ix2 p q := ⟨j 0, j 1, eq_ix2 j⟩
  exact h p q

/-- THE BLOCK EQUATION over any arrays: the body's payload of the five windows' blocks at point `t` of arrays `A`, `X`,
    `Wl`, `Wr` and a one-row bias `Bv`, cut by the result window, is block `t` of `result A X Wl Wr B`, when `Bv` is the
    bias `B` reshaped to one row. -/
theorem block_eq (t : Fin cfg0.N) (A X : S100000x64.Idx → EReal) (Wl Wr : S64x40.Idx → EReal) (Bv : S1x40.Idx → EReal)
    (B : S40.Idx → EReal) (hB : Bv = shapeCast S1x40 B shapeCasts_S40_S1x40) :
    (cfg0.win 5).cut (grid0.coords t)
        (k0_pay1 (F := Ideal) (((cfg0.win 0).blk t).view.read (Elt Ideal) A) (((cfg0.win 1).blk t).view.read (Elt Ideal) X)
          (((cfg0.win 2).blk t).view.read (Elt Ideal) Wl) (((cfg0.win 3).blk t).view.read (Elt Ideal) Wr)
          (((cfg0.win 4).blk t).view.read (Elt Ideal) Bv))
      = ((cfg0.win 5).blk t).view.read (Elt Ideal) (result A X Wl Wr B) := by
  obtain ⟨a0, a1, b0, b1, c0, c1, d0, d1, e0, e1, f0, f1⟩ := block_index t
  refine cut_eq_read_of_entries t _ _ fun p q => ?_
  refine (BlockRows.payload_entry (((cfg0.win 0).blk t).view.read (Elt Ideal) A) (((cfg0.win 1).blk t).view.read (Elt Ideal) X)
    (((cfg0.win 2).blk t).view.read (Elt Ideal) Wl) (((cfg0.win 3).blk t).view.read (Elt Ideal) Wr)
    (((cfg0.win 4).blk t).view.read (Elt Ideal) Bv) p q).trans ?_
  refine result_of_row A X Wl Wr B (((cfg0.win 5).blk t).view.emb (ix2 p q))
    (fun k => ((cfg0.win 0).blk t).view.read (Elt Ideal) A (ix2 p k)) (fun k => ((cfg0.win 1).blk t).view.read (Elt Ideal) X (ix2 p k))
    (fun k c' => ((cfg0.win 2).blk t).view.read (Elt Ideal) Wl (ix2 k c')) (fun k c' => ((cfg0.win 3).blk t).view.read (Elt Ideal) Wr (ix2 k c'))
    (fun c' => ((cfg0.win 4).blk t).view.read (Elt Ideal) Bv (ix2 (0 : Fin 1) c')) q ?_ ?_ ?_ ?_ ?_ ?_
  · intro k
    show A (((cfg0.win 0).blk t).view.emb (ix2 p k)) = A (ix2 ((((cfg0.win 5).blk t).view.emb (ix2 p q)) 0) k)
    refine congrArg A (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · intro k
    show X (((cfg0.win 1).blk t).view.emb (ix2 p k)) = X (ix2 ((((cfg0.win 5).blk t).view.emb (ix2 p q)) 0) k)
    refine congrArg X (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · intro k c'
    show Wl (((cfg0.win 2).blk t).view.emb (ix2 k c')) = Wl (ix2 k c')
    refine congrArg Wl (funext fun a => Fin.ext ?_)
    match a with
    | ⟨0, _⟩ => show win0_2.index t (0 : Fin 2) * 64 + 1 * k.val = k.val; omega
    | ⟨1, _⟩ => show win0_2.index t (1 : Fin 2) * 40 + 1 * c'.val = c'.val; omega
  · intro k c'
    show Wr (((cfg0.win 3).blk t).view.emb (ix2 k c')) = Wr (ix2 k c')
    refine congrArg Wr (funext fun a => Fin.ext ?_)
    match a with
    | ⟨0, _⟩ => show win0_3.index t (0 : Fin 2) * 64 + 1 * k.val = k.val; omega
    | ⟨1, _⟩ => show win0_3.index t (1 : Fin 2) * 40 + 1 * c'.val = c'.val; omega
  · intro c'
    show Bv (((cfg0.win 4).blk t).view.emb (ix2 (0 : Fin 1) c')) = B (ix1 c')
    have he : ((cfg0.win 4).blk t).view.emb (ix2 (0 : Fin 1) c') = ix2 (0 : Fin 1) c' := funext fun a => Fin.ext (by
      match a with
      | ⟨0, _⟩ => show win0_4.index t (0 : Fin 2) * 1 + 1 * 0 = 0; omega
      | ⟨1, _⟩ => show win0_4.index t (1 : Fin 2) * 40 + 1 * c'.val = c'.val; omega)
    rw [he, hB]
    exact shapeCast_a_1a_apply _ _ (0 : Fin 1) c'
  · apply Fin.ext
    show win0_5.index t (1 : Fin 2) * 40 + 1 * q.val = q.val
    omega

/-- The bias window's array, spelled as the window's own: the bias reshaped to one row. -/
theorem bias_win (c : Dev nD) :
    (V m c (Pipeline.arrRef spec0 4) : S1x40.Idx → EReal) = shapeCast S1x40 (m ((c : Thread nD τ).loc main_arg3)) shapeCasts_S40_S1x40 :=
  bias_row m c

/-- WHAT POINT `t` WRITES BACK is block `t` of `result` of the aggregated features as the region finds them (the first
    window's array) and the argument arrays. -/
theorem flushed_eq (c : Dev nD) (t : Fin cfg0.N) :
    (dats m 0 c).flushed 5 t = ((cfg0.win 5).blk t).view.read (Elt Ideal)
      (result (V m c (Pipeline.arrRef spec0 0)) (m ((c : Thread nD τ).loc main_arg0)) (m ((c : Thread nD τ).loc main_arg2))
        (m ((c : Thread nD τ).loc main_arg4)) (m ((c : Thread nD τ).loc main_arg3))) := by
  have h1 : V m c (Pipeline.arrRef spec0 1) = m ((c : Thread nD τ).loc main_arg0) := V_main_arg0 m c
  have h2 : V m c (Pipeline.arrRef spec0 2) = m ((c : Thread nD τ).loc main_arg2) := V_main_arg2 m c
  have h3 : V m c (Pipeline.arrRef spec0 3) = m ((c : Thread nD τ).loc main_arg4) := V_main_arg4 m c
  rw [Value.flushed5]
  unfold out0_5
  rw [View.canon_unit_zero zero_offset]
  simp only [View.ld_unit_zero (S := S10000x64) zero_offset, View.ld_unit_zero (S := S64x40) zero_offset,
    View.ld_unit_zero (S := S1x40) zero_offset]
  unfold iblk
  rw [h1, h2, h3]
  exact block_eq t (V m c (Pipeline.arrRef spec0 0)) (m ((c : Thread nD τ).loc main_arg0)) (m ((c : Thread nD τ).loc main_arg2))
    (m ((c : Thread nD τ).loc main_arg4)) (V m c (Pipeline.arrRef spec0 4)) (m ((c : Thread nD τ).loc main_arg3)) (bias_win m c)

/-- An index of the result array is in point `t`'s block iff each coordinate is in the block's range on its axis. -/
theorem mem_block (t : Fin cfg0.N) (i : S100000x40.Idx) :
    i ∈ ((cfg0.win 5).blk t).view.set ↔ ∀ a : Fin 2, win0_5.index t a * S10000x40.size a ≤ (i a).val
      ∧ (i a).val < win0_5.index t a * S10000x40.size a + S10000x40.size a := by
  show i ∈ ((View.whole main_v24).slice (win0_5.rect t)).set ↔ _
  rw [View.set_slice_whole, Rect.mem_set_unit]
  exact Iff.rfl

/-- Every index of the result array is in the block of the point that its row, divided by 10000, names. -/
theorem cover (i : S100000x40.Idx) :
    ∃ t : Fin cfg0.N, (cfg0.win 5).flush t = true ∧ i ∈ ((cfg0.win 5).blk t).view.set := by
  have hi0 : (i 0).val < 100000 := (i 0).isLt
  have hi1 : (i 1).val < 40 := (i 1).isLt
  have hN : (i 0).val / 10000 < grid0.N := by rw [N_0]; omega
  refine ⟨⟨(i 0).val / 10000, hN⟩, flush0_5 _, ?_⟩
  rw [mem_block]
  obtain ⟨-, -, -, -, -, -, -, -, -, -, f0, f1⟩ := block_index ⟨(i 0).val / 10000, hN⟩
  have f0' : win0_5.index ⟨(i 0).val / 10000, hN⟩ (0 : Fin 2) = (i 0).val / 10000 := f0
  intro a
  match a with
  | ⟨0, _⟩ =>
    show win0_5.index ⟨(i 0).val / 10000, hN⟩ (0 : Fin 2) * 10000 ≤ (i 0).val
      ∧ (i 0).val < win0_5.index ⟨(i 0).val / 10000, hN⟩ (0 : Fin 2) * 10000 + 10000
    omega
  | ⟨1, _⟩ =>
    show win0_5.index ⟨(i 0).val / 10000, hN⟩ (1 : Fin 2) * 40 ≤ (i 1).val
      ∧ (i 1).val < win0_5.index ⟨(i 0).val / 10000, hN⟩ (1 : Fin 2) * 40 + 40
    omega

/-- THE RESULT ARRAY after the run is `result` of the aggregated features as the region finds them and the arguments. -/
theorem final (c : Dev nD) :
    (dats m 0 c).arrAt 5 cfg0.N
      = result (V m c (Pipeline.arrRef spec0 0)) (m ((c : Thread nD τ).loc main_arg0)) (m ((c : Thread nD τ).loc main_arg2))
          (m ((c : Thread nD τ).loc main_arg4)) (m ((c : Thread nD τ).loc main_arg3)) :=
  (dats m 0 c).arrAt_eq_of_cover 5 _ (fun t _ => flushed_eq m c t) cover

/-- THE KERNEL'S RUN, re-posted: the result array at `result`, the arguments unchanged. -/
theorem run : θ_run defs (onTc (τ := τ) (main (F := Ideal))) ⟨m, fun _ => 0, ρ⟩ fun r => ∀ c : Dev nD,
      r.2.mem ((c : Thread nD τ).loc main_v24)
        = result (V m c (Pipeline.arrRef spec0 0)) (m ((c : Thread nD τ).loc main_arg0)) (m ((c : Thread nD τ).loc main_arg2))
            (m ((c : Thread nD τ).loc main_arg4)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.BlockArray

end
-- ==== Proof.RefRun.lean ====
/-
  The reference program's run, read back: every weakly fair execution of the reference terminates with its result
  array at the last STAGE of the program — the value of its last operation as a function of the five argument
  arrays, each stage defined from the stages before it — and with the argument arrays unchanged.

  The program is fifty operations in a line: thirty-five that compute the logits `agg · Wl + b + x · Wr` from the
  arguments (among them the gather of the source rows and the two scatter-adds of the mean aggregation), then the
  fifteen of the row-wise log-softmax, which read the logits and nothing else.  The contents of a buffer after a
  line of operations is a fold over the line, and the fold over a concatenation is the fold over its second part
  from the fold over its first (`after_append`).  So the result is read in two halves: the log-softmax's operations
  over ANY contents `W` whose logits buffer holds the logits stage (`softmax_half`), and the first thirty-five from
  the launch contents (`logits_half`).  The logits are one opaque value in the second half: the term that spells
  the whole program out (in which the logits occur four times) is never formed.
-/
import proofs.«106241_j2697239462706_1_alg».proof.Proof.RefOps
import proofs.«106241_j2697239462706_1_alg».proof.Proof.RefStages

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after a concatenated line: run the second part from what the first part leaves. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

set_option maxRecDepth 8192 in
/-- THE FIRST HALF: after the first thirty-five operations, from the launch contents, the logits buffer holds the
    logits stage of the arguments. -/
theorem logits_half (m : (ℓ : Loc nD τ sig) → Buf (Elt F) ℓ) (c : Dev nD) :
    after ((ops (F := F)).take 35) (launchContents m c) (Proc.devRef .tc main_v28)
      = val_main_v28 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  simp only [ops, List.take_succ_cons, List.take_zero]
  after_results_simp
  rfl

/-- Contents carried to a buffer's own type and back are the contents: the two transports are along one equation and its
    converse. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

set_option maxRecDepth 8192 in
/-- THE SECOND HALF: the log-softmax's fifteen operations, run from ANY contents `W` whose logits buffer, read at the
    logits' type, holds the logits stage, leave the last stage in the result buffer. -/
theorem softmax_half (W : Valuation τ sig (Elt F))
    (x0 : (⟨S100000x64, .f32⟩ : BufTy).Contents (Elt F)) (x1 : (⟨S2x1600000, .i32⟩ : BufTy).Contents (Elt F))
    (x2 : (⟨S64x40, .f32⟩ : BufTy).Contents (Elt F)) (x3 : (⟨S40, .f32⟩ : BufTy).Contents (Elt F))
    (x4 : (⟨S64x40, .f32⟩ : BufTy).Contents (Elt F))
    (hW : (TRef.of (T := ⟨S100000x40, .f32⟩) main_v28).ofBuf (W (Proc.devRef .tc main_v28)) = val_main_v28 (F := F) x0 x1 x2 x3 x4) :
    after ((ops (F := F)).drop 35) W (Proc.devRef .tc main_v29) = val_main_v29 (F := F) x0 x1 x2 x3 x4 := by
  simp only [ops, List.drop_succ_cons, List.drop_zero]
  after_results_simp
  simp only [ofBuf_toBuf]
  rw [hW]
  unfold val_main_v29 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst
  generalize val_main_v28 (F := F) x0 x1 x2 x3 x4 = w
  rfl

/-- Read at the logits' own type, the logits buffer's contents are its contents. -/
theorem ofBuf_logits (v : (⟨S100000x40, .f32⟩ : BufTy).Contents (Elt F)) :
    (TRef.of (T := ⟨S100000x40, .f32⟩) main_v28).ofBuf v = v := rfl

/-- After the whole line, from the launch contents, the result buffer holds the last stage of the arguments. -/
theorem result_eq (m : (ℓ : Loc nD τ sig) → Buf (Elt F) ℓ) (c : Dev nD) :
    after (ops (F := F)) (launchContents m c) (Proc.devRef .tc main_v29)
      = val_main_v29 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  calc after (ops (F := F)) (launchContents m c) (Proc.devRef .tc main_v29)
      = after ((ops (F := F)).take 35 ++ (ops (F := F)).drop 35) (launchContents m c) (Proc.devRef .tc main_v29) := by
        rw [List.take_append_drop]
    _ = after ((ops (F := F)).drop 35) (after ((ops (F := F)).take 35) (launchContents m c)) (Proc.devRef .tc main_v29) := by
        rw [after_append]
    _ = _ := softmax_half _ _ _ _ _ _ ((ofBuf_logits _).trans (logits_half m c))

set_option maxRecDepth 8192 in
set_option maxHeartbeats 2000000 in
/-- THE RUN: on every device, from any memory with zero counters, every weakly fair execution of the reference
    terminates with its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = val_main_v29 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefRows.lean ====
/-
  The reference's last stage, index by index, is the row function of the arguments.

  Entry (r, q) of the reference's result depends on row r of the aggregated features (the stage before the first
  product, kept as ONE opaque function of the node features and the edge list: the gather and the two scatter-adds are
  never opened) and row r of the node features.  Its logits are `(agg · Wl + b) + x · Wr`, the bias in the middle
  (`logits_stage`); the row maximum is a fold of `max` from −∞ followed by one more `max` with −∞, which changes
  nothing (`max_stage`); the row sum is zero plus the sum of the shifted row's exponentials (`sum_stage`).  Moving the
  bias to the end (`Cert.SageRows.logitBiasMid_eq`) gives `Cert.SageRows.result`.
-/
import proofs.«106241_j2697239462706_1_alg».proof.Proof.RefStages
import proofs.«106241_j2697239462706_1_alg».proof.Proof.Rows

noncomputable section

namespace Cert.ReferenceIdeal.RefRows

open Cert.ReferenceIdeal Cert.ReferenceIdeal.Gen Cert.ReferenceIdeal.ReadP
open Idealize.ShloMosaic Idealize.ShloMosaic.ValueIdx Cert.SageRows

/-- The aggregated features: the stage the first product reads, as a function of the node features and the edge list. -/
abbrev agg (x0 : (⟨S100000x64, .f32⟩ : BufTy).Contents (Elt Ideal)) (x1 : (⟨S2x1600000, .i32⟩ : BufTy).Contents (Elt Ideal)) :
    S100000x64.Idx → EReal := val_main_v22 (F := Ideal) x0 x1

/-- The logits stage at (r, c): row r's logit at column c, the bias added between the two products. -/
theorem logits_stage (x0 : (⟨S100000x64, .f32⟩ : BufTy).Contents (Elt Ideal)) (x1 : (⟨S2x1600000, .i32⟩ : BufTy).Contents (Elt Ideal)) (x2 : (⟨S64x40, .f32⟩ : BufTy).Contents (Elt Ideal)) (x3 : (⟨S40, .f32⟩ : BufTy).Contents (Elt Ideal)) (x4 : (⟨S64x40, .f32⟩ : BufTy).Contents (Elt Ideal)) (r : Fin 100000) (c : Fin 40) :
    val_main_v28 (F := Ideal) x0 x1 x2 x3 x4 (ix2 r c)
      = logitBiasMid (fun k => agg x0 x1 (ix2 r k)) (fun k => x0 (ix2 r k)) (fun k c => x2 (ix2 k c)) (fun k c => x4 (ix2 k c))
          (fun c => x3 (ix1 c)) c := by
  have el : ∀ k : Fin 64, lidx_main_v23 (ix2 r c) k = ix2 r k := fun k => funext fun a => Fin.ext (by
    match a with | ⟨0, _⟩ => rfl | ⟨1, _⟩ => rfl)
  have er : ∀ k : Fin 64, ridx_main_v23 (ix2 r c) k = ix2 k c := fun k => funext fun a => Fin.ext (by
    match a with | ⟨0, _⟩ => rfl | ⟨1, _⟩ => rfl)
  have el' : ∀ k : Fin 64, lidx_main_v27 (ix2 r c) k = ix2 r k := fun k => funext fun a => Fin.ext (by
    match a with | ⟨0, _⟩ => rfl | ⟨1, _⟩ => rfl)
  have er' : ∀ k : Fin 64, ridx_main_v27 (ix2 r c) k = ix2 k c := fun k => funext fun a => Fin.ext (by
    match a with | ⟨0, _⟩ => rfl | ⟨1, _⟩ => rfl)
  have eb : idx_main_v24 (idx_main_v25 (ix2 r c)) = ix1 c := funext fun a => Fin.ext (by
    match a with | ⟨0, _⟩ => rfl)
  rw [val_main_v28_apply, val_main_v26_apply, val_main_v23_apply, val_main_v25_apply, val_main_v24_apply, val_main_v27_apply]
  simp only [el, er, el', er', eb]
  rfl

/-- A maximum over the columns taken on the host, from −∞, at row r of ANY [100000, 40] array: the fold of `max` from −∞
    over that row's forty entries. -/
theorem host_rowMax (y : S100000x40.Idx → EReal) (init : S_.Idx → EReal) (hinit : ∀ i, init i = negInf) (r : Fin 100000) :
    Host.reduce (max : EReal → EReal → EReal) y init reducesTo_S100000x40_S100000_d1 h_S_ (ix1 r)
      = rowMax (fun c => y (ix2 r c)) := by
  have hr : S100000x40.Reduces [1] S100000 := by decide
  refine (Host.reduce_eq_fold_single (max : EReal → EReal → EReal) y init reducesTo_S100000x40_S100000_d1 hr h_S_ (ix1 r)).trans ?_
  rw [hinit]
  unfold rowMax
  exact congrArg (fun f => (Finset.univ : Finset (Fin 40)).fold max negInf f) (funext fun c => congrArg y (funext fun a => Fin.ext (by
    match a with | ⟨0, _⟩ => rfl | ⟨1, _⟩ => rfl)))

/-- The row maximum the reference subtracts, at row r: the fold of `max` from −∞ over the row's forty logits (the
    second maximum with −∞ changes nothing). -/
theorem max_stage (x0 : (⟨S100000x64, .f32⟩ : BufTy).Contents (Elt Ideal)) (x1 : (⟨S2x1600000, .i32⟩ : BufTy).Contents (Elt Ideal)) (x2 : (⟨S64x40, .f32⟩ : BufTy).Contents (Elt Ideal)) (x3 : (⟨S40, .f32⟩ : BufTy).Contents (Elt Ideal)) (x4 : (⟨S64x40, .f32⟩ : BufTy).Contents (Elt Ideal)) (r : Fin 100000) :
    val_main_call0_v2 (F := Ideal) x0 x1 x2 x3 x4 (ix1 r)
      = rowMax (fun c => val_main_v28 (F := Ideal) x0 x1 x2 x3 x4 (ix2 r c)) := by
  rw [val_main_call0_v2_apply, val_main_call0_v1_apply, val_main_call0_cst_0_apply]
  unfold val_main_call0_v0
  generalize val_main_v28 (F := Ideal) x0 x1 x2 x3 x4 = y
  exact (max_negInf_left _).trans (host_rowMax y (val_main_call0_cst (F := Ideal)) (fun _ => rfl) r)

/-- The shifted logits at (r, c): the logit minus the row's maximum. -/
theorem shifted_stage (x0 : (⟨S100000x64, .f32⟩ : BufTy).Contents (Elt Ideal)) (x1 : (⟨S2x1600000, .i32⟩ : BufTy).Contents (Elt Ideal)) (x2 : (⟨S64x40, .f32⟩ : BufTy).Contents (Elt Ideal)) (x3 : (⟨S40, .f32⟩ : BufTy).Contents (Elt Ideal)) (x4 : (⟨S64x40, .f32⟩ : BufTy).Contents (Elt Ideal)) (r : Fin 100000) (c : Fin 40) :
    val_main_call0_v5 (F := Ideal) x0 x1 x2 x3 x4 (ix2 r c)
      = val_main_v28 (F := Ideal) x0 x1 x2 x3 x4 (ix2 r c) - rowMax (fun c' => val_main_v28 (F := Ideal) x0 x1 x2 x3 x4 (ix2 r c')) := by
  have e : idx_main_call0_v3 (idx_main_call0_v4 (ix2 r c)) = ix1 r := funext fun a => Fin.ext (by
    match a with | ⟨0, _⟩ => rfl)
  rw [val_main_call0_v5_apply, val_main_call0_v4_apply, val_main_call0_v3_apply, e, max_stage]
  generalize rowMax (fun c' => val_main_v28 (F := Ideal) x0 x1 x2 x3 x4 (ix2 r c')) = M
  generalize val_main_v28 (F := Ideal) x0 x1 x2 x3 x4 (ix2 r c) = z
  rfl

/-- The row sum at row r: the sum of the exponentials of the row's shifted logits. -/
theorem sum_stage (x0 : (⟨S100000x64, .f32⟩ : BufTy).Contents (Elt Ideal)) (x1 : (⟨S2x1600000, .i32⟩ : BufTy).Contents (Elt Ideal)) (x2 : (⟨S64x40, .f32⟩ : BufTy).Contents (Elt Ideal)) (x3 : (⟨S40, .f32⟩ : BufTy).Contents (Elt Ideal)) (x4 : (⟨S64x40, .f32⟩ : BufTy).Contents (Elt Ideal)) (r : Fin 100000) :
    val_main_call0_v7 (F := Ideal) x0 x1 x2 x3 x4 (ix1 r)
      = ∑ c : Fin 40, Ideal.exp (val_main_call0_v5 (F := Ideal) x0 x1 x2 x3 x4 (ix2 r c)) := by
  have e : ∀ k : Fin 40, idx_main_call0_v7 (ix1 r) k = ix2 r k := fun k => funext fun a => Fin.ext (by
    match a with | ⟨0, _⟩ => rfl | ⟨1, _⟩ => rfl)
  rw [val_main_call0_v7_apply, val_main_call0_cst_1_apply]
  show Ideal.ofBits .f32 0x00000000#32 + _ = _
  rw [zeroWord_add]
  refine Finset.sum_congr rfl fun c _ => ?_
  rw [val_main_call0_v6_apply, e]
  generalize val_main_call0_v5 (F := Ideal) x0 x1 x2 x3 x4 (ix2 r c) = z
  rfl

/-- THE REFERENCE IS THE ROW FUNCTION: its last stage is `result` of the aggregated features, the node features, the
    weights and the bias. -/
theorem stage_eq_result (x0 : (⟨S100000x64, .f32⟩ : BufTy).Contents (Elt Ideal)) (x1 : (⟨S2x1600000, .i32⟩ : BufTy).Contents (Elt Ideal)) (x2 : (⟨S64x40, .f32⟩ : BufTy).Contents (Elt Ideal)) (x3 : (⟨S40, .f32⟩ : BufTy).Contents (Elt Ideal)) (x4 : (⟨S64x40, .f32⟩ : BufTy).Contents (Elt Ideal)) :
    val_main_v29 (F := Ideal) x0 x1 x2 x3 x4 = result (agg x0 x1) x0 x2 x4 x3 := by
  funext i
  obtain ⟨r, q, rfl⟩ : ∃ (r : Fin 100000) (q : Fin 40), i = ix2 r q := ⟨i 0, i 1, eq_ix2 i⟩
  have e : idx_main_call0_v8 (idx_main_call0_v10 (ix2 r q)) = ix1 r := funext fun a => Fin.ext (by
    match a with | ⟨0, _⟩ => rfl)
  rw [val_main_v29_apply, val_main_call0_v10_apply, val_main_call0_v9_apply, val_main_call0_v8_apply, e, sum_stage]
  simp only [shifted_stage]
  -- the row's forty logits, named: every later step is about `f` alone
  obtain ⟨f, hf⟩ : ∃ f : Fin 40 → EReal, ∀ c, val_main_v28 (F := Ideal) x0 x1 x2 x3 x4 (ix2 r c) = f c := ⟨_, fun _ => rfl⟩
  have hl : f = logitBiasLast (fun k => agg x0 x1 (ix2 r k)) (fun k => x0 (ix2 r k)) (fun k c => x2 (ix2 k c))
      (fun k c => x4 (ix2 k c)) (fun c => x3 (ix1 c)) :=
    funext fun c => (hf c).symm.trans ((logits_stage x0 x1 x2 x3 x4 r c).trans (congrFun (logitBiasMid_eq _ _ _ _ _) c))
  simp only [hf]
  refine Eq.trans ?_ (result_of_row (agg x0 x1) x0 x2 x4 x3 (ix2 r q) _ _ _ _ _ q
    (fun _ => rfl) (fun _ => rfl) (fun _ _ => rfl) (fun _ _ => rfl) (fun _ => rfl) rfl)
  rw [← hl]
  rfl

end Cert.ReferenceIdeal.RefRows

end
-- ==== Proof.HostPrefix.lean ====
/-
  The aggregated features the kernel's region finds are the reference's aggregation stage of the same arguments.

  Before its one region the kernel's program runs the same host operations, in the same order, as the reference does
  before its first product: the two rows of the edge list sliced out, negative source indices wrapped by the node
  count, the gather of the source rows, their scatter-add by destination, the scatter-add of ones (the in-degree),
  its maximum with one, and the quotient.  Both programs print these with their own copies of the shape names and of
  the gather's and scatters' dimension records; the copies have the same fields, so the two terms are one term.
  Nothing of the gather or the scatters is opened: the aggregation stays an opaque function of the node features and
  the edge list on both sides.
-/
import proofs.«106241_j2697239462706_1_alg».proof.Proof.Gen.KernelIdeal.Frame
import proofs.«106241_j2697239462706_1_alg».proof.Proof.RefStages
import Idealize.ShloMosaic.Lib.StableHlo.Run

noncomputable section

namespace Cert.KernelIdeal.HostPrefix

open Cert.KernelIdeal Cert.KernelIdeal.Gen
open Idealize.ShloMosaic Idealize.ShloMosaic.TcCoe Idealize.SL.Sem Idealize.ShloMosaic.StableHlo

set_option maxRecDepth 8192 in
/-- The contents of the aggregated-features buffer at region entry: the reference's aggregation stage of the node
    features and the edge list. -/
theorem agg_eq (m : (ℓ : Loc nD τ sig) → Buf (Elt Ideal) ℓ) (c : Dev nD) :
    (V m c main_v22 : S100000x64.Idx → EReal)
      = Cert.ReferenceIdeal.ReadP.val_main_v22 (F := Ideal) (m ((c : Thread nD τ).loc main_arg0)) (m ((c : Thread nD τ).loc main_arg1)) := by
  dsimp only [Gen.V, Gen.hostOps0]
  after_results_simp
  rfl

/-- The same contents, the buffer spelled as the region's first window's array. -/
theorem agg_win_eq (m : (ℓ : Loc nD τ sig) → Buf (Elt Ideal) ℓ) (c : Dev nD) :
    (V m c (Pipeline.arrRef spec0 0) : S100000x64.Idx → EReal)
      = Cert.ReferenceIdeal.ReadP.val_main_v22 (F := Ideal) (m ((c : Thread nD τ).loc main_arg0)) (m ((c : Thread nD τ).loc main_arg1)) :=
  agg_eq m c

end Cert.KernelIdeal.HostPrefix

end
-- ==== Proof.lean ====
/-
  A GraphSAGE layer with mean aggregation and a row-wise log-softmax: the Pallas kernel against its jnp reference.

  Both programs first compute, on the host and by the same operations, the mean over each node's incoming neighbours
  of the neighbours' features (`agg`: a gather of the source rows, a scatter-add by destination, a division by the
  in-degree or one).  The kernel then runs one region over ten blocks of 10000 rows: for each row it forms the forty
  logits `agg · Wl + x · Wr + b` (the operands narrowed to bf16 for the two products) and stores their log-softmax.
  The reference forms `agg · Wl + b + x · Wr` for the whole array and applies `jax.nn.log_softmax`.

  At the ideal values narrowing is the identity, so the two sides differ in three places only: the bias is added last
  in the kernel and between the two products in the reference; the reference takes one more maximum with −∞ before
  subtracting the row's maximum; and the kernel works block by block.  The first is commutativity and associativity
  of `+` on the extended reals, the second is `max ⊥ x = x`, the third is that the ten blocks tile the rows.  No
  finiteness is used: the equality holds of every extended-real input, and the precondition is never opened.

  The pieces: `Cert.SageRows` (the row function `result`, free of both programs); `Cert.KernelIdeal.BlockRows` and
  `BlockArray` (the kernel's result array is `result`); `Cert.ReferenceIdeal.RefRun` (the reference's run, its result at
  the program's last stage) and `RefRows` (that stage is `result`); `Cert.KernelIdeal.HostPrefix` (the region finds the
  reference's `agg`).  The three frames are the generated frame runs (the reference's: its run with the result dropped);
  the ideal pass rewrote nothing, so `preserves` is `True`.
-/
import proofs.«106241_j2697239462706_1_alg».proof.Defs
import proofs.«106241_j2697239462706_1_alg».proof.Proof.Gen.Kernel
import proofs.«106241_j2697239462706_1_alg».proof.Proof.Gen.Kernel.Skeleton
import proofs.«106241_j2697239462706_1_alg».proof.Proof.Gen.Kernel.Launch
import proofs.«106241_j2697239462706_1_alg».proof.Proof.Gen.Kernel.Points
import proofs.«106241_j2697239462706_1_alg».proof.Proof.Gen.Kernel.Frame
import proofs.«106241_j2697239462706_1_alg».proof.Proof.Gen.KernelIdeal
import proofs.«106241_j2697239462706_1_alg».proof.Proof.Gen.KernelIdeal.Skeleton
import proofs.«106241_j2697239462706_1_alg».proof.Proof.Gen.KernelIdeal.Launch
import proofs.«106241_j2697239462706_1_alg».proof.Proof.Gen.KernelIdeal.Points
import proofs.«106241_j2697239462706_1_alg».proof.Proof.Gen.KernelIdeal.Frame
import proofs.«106241_j2697239462706_1_alg».proof.Proof.Gen.KernelIdeal.Value
import proofs.«106241_j2697239462706_1_alg».proof.Proof.Gen.ReferenceIdeal
import proofs.«106241_j2697239462706_1_alg».proof.Proof.Gen.Pre_finite_inputs
import proofs.«106241_j2697239462706_1_alg».proof.Proof.Rows
import proofs.«106241_j2697239462706_1_alg».proof.Proof.BlockRows
import proofs.«106241_j2697239462706_1_alg».proof.Proof.BlockArray
import proofs.«106241_j2697239462706_1_alg».proof.Proof.RefOps
import proofs.«106241_j2697239462706_1_alg».proof.Proof.RefStages
import proofs.«106241_j2697239462706_1_alg».proof.Proof.RefRun
import proofs.«106241_j2697239462706_1_alg».proof.Proof.RefRows
import proofs.«106241_j2697239462706_1_alg».proof.Proof.HostPrefix
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the arguments both programs end with the result array at `Cert.SageRows.result` of the
    aggregated features, the node features, the two weight matrices and the bias: the kernel's by its ten blocks,
    the reference's by its last stage, the aggregated features the same function of the arguments on both sides. -/
theorem algebraic : Cert.algebraic_KernelIdeal_ReferenceIdeal := by
  intro m ρ m' ρ' _ hagree
  refine ⟨_, Cert.KernelIdeal.BlockArray.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4⟩ := hagree c
  rw [h0, h1, h2, h3, h4, Cert.ReferenceIdeal.RefRows.stage_eq_result, Cert.KernelIdeal.HostPrefix.agg_win_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
